-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1000 : Shape := ⟨2, ![8192, 1000]⟩
abbrev S4096x1000 : Shape := ⟨2, ![4096, 1000]⟩
abbrev S_ : Shape := ⟨0, ![]⟩

class Facts : Prop where
  bcast_S_S8192x1000 : S_.BroadcastsInDim S8192x1000 (![] : Fin 0 → Fin S8192x1000.rank)
  reducesTo_S8192x1000_S_d0_1 : S8192x1000.ReducesTo [0, 1] S_
  h_S_ : 0 < S_.numel
  bcast_S_S4096x1000 : S_.BroadcastsInDim S4096x1000 (![] : Fin 0 → Fin S4096x1000.rank)
  reducesTo_S4096x1000_S_d0_1 : S4096x1000.ReducesTo [0, 1] S_

variable [Facts]

def fn {F : FTy → Type} [FloatOps F] (main_arg0 : FVec F S8192x1000 .f32) (main_arg1 : FVec F S4096x1000 .f32) : IVec S_ 1 :=
  let main_v0 : FVec F S8192x1000 .f32 := Host.absf main_arg0
  let main_cst : FVec F S_ .f32 := constant S_ .f32 0x7F800000#32
  let main_v1 : FVec F S8192x1000 .f32 := broadcastInDim S8192x1000 ![] bcast_S_S8192x1000 main_cst
  let main_v2 : IVec S8192x1000 1 := cmpf .olt main_v0 main_v1
  let main_c : IVec S_ 1 := constantI S_ 1 1#1
  let main_v3 : IVec S_ 1 := (fun x v => Host.reduce IntOp.andi x v reducesTo_S8192x1000_S_d0_1 h_S_) main_v2 main_c
  let main_v4 : FVec F S4096x1000 .f32 := Host.absf main_arg1
  let main_cst_0 : FVec F S_ .f32 := constant S_ .f32 0x7F800000#32
  let main_v5 : FVec F S4096x1000 .f32 := broadcastInDim S4096x1000 ![] bcast_S_S4096x1000 main_cst_0
  let main_v6 : IVec S4096x1000 1 := cmpf .olt main_v4 main_v5
  let main_c_1 : IVec S_ 1 := constantI S_ 1 1#1
  let main_v7 : IVec S_ 1 := (fun x v => Host.reduce IntOp.andi x v reducesTo_S4096x1000_S_d0_1 h_S_) main_v6 main_c_1
  let main_v8 : IVec S_ 1 := andi main_v3 main_v7
  main_v8
-- ==== Kernel.lean ====
abbrev S8192x1000 : Shape := ⟨2, ![8192, 1000]⟩
abbrev S4096x1000 : Shape := ⟨2, ![4096, 1000]⟩
abbrev S1x4096 : Shape := ⟨2, ![1, 4096]⟩
abbrev S1024x1000 : Shape := ⟨2, ![1024, 1000]⟩
abbrev S1x1024 : Shape := ⟨2, ![1, 1024]⟩
abbrev S1024 : Shape := ⟨1, ![1024]⟩
abbrev S8192x4096 : Shape := ⟨2, ![8192, 4096]⟩
abbrev S512x1000 : Shape := ⟨2, ![512, 1000]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 12
  | .smem => 0
  | _ => 0

abbrev bufTy : (tb : Table) → Fin (tcTables nBuf tb) → BufTy
  | .hbm, ⟨0, _⟩ => ⟨S8192x1000, .f32⟩
  | .hbm, ⟨1, _⟩ => ⟨S4096x1000, .f32⟩
  | .hbm, ⟨2, _⟩ => ⟨S4096x1000, .bf16⟩
  | .hbm, ⟨3, _⟩ => ⟨S1x4096, .f32⟩
  | .hbm, ⟨4, _⟩ => ⟨S8192x4096, .f32⟩
  | .local _ .vmem, ⟨0, _⟩ => ⟨S1024x1000, .f32⟩
  | .local _ .vmem, ⟨1, _⟩ => ⟨S1024x1000, .f32⟩
  | .local _ .vmem, ⟨2, _⟩ => ⟨S1024x1000, .bf16⟩
  | .local _ .vmem, ⟨3, _⟩ => ⟨S1024x1000, .bf16⟩
  | .local _ .vmem, ⟨4, _⟩ => ⟨S1x1024, .f32⟩
  | .local _ .vmem, ⟨5, _⟩ => ⟨S1x1024, .f32⟩
  | .local _ .vmem, ⟨6, _⟩ => ⟨S512x1000, .f32⟩
  | .local _ .vmem, ⟨7, _⟩ => ⟨S512x1000, .f32⟩
  | .local _ .vmem, ⟨8, _⟩ => ⟨S4096x1000, .bf16⟩
  | .local _ .vmem, ⟨9, _⟩ => ⟨S1x4096, .f32⟩
  | .local _ .vmem, ⟨10, _⟩ => ⟨S512x4096, .f32⟩
  | .local _ .vmem, ⟨11, _⟩ => ⟨S512x4096, .f32⟩
  | _, _ => ⟨S8192x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1000 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1024x1000_S1024x1000_0_0 : ∀ a, (![0, 0] : Fin 2 → Nat) a + S1024x1000.size a ≤ S1024x1000.size a
  h_S1024x1000 : 0 < S1024x1000.numel
  bitsLt_bf16_f32 : FTy.bits .bf16 < FTy.bits .f32
  packedbf16_S1024x1000_S1024x1000_0_0 : (Rect.unit (s := S1024x1000) ![0, 0] S1024x1000.size inb_S1024x1000_S1024x1000_0_0).PackedRows (EltTy.packing .bf16)
  reduces_S1024x1000_S1024 : S1024x1000.Reduces [1] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  inb_S4096x1000_S4096x1000_0_0 : ∀ a, (![0, 0] : Fin 2 → Nat) a + S4096x1000.size a ≤ S4096x1000.size a
  h_S4096x1000 : 0 < S4096x1000.numel
  shapeCasts_S4096x1000_S4096x1000 : S4096x1000.ShapeCasts S4096x1000
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S512x1_S512x4096 : S512x1.Broadcasts S512x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  dot_S512x1000_S4096x1000_S512x4096_1_1_0_0_n_n_wf : DotDims.WF S512x1000 S4096x1000 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S4096x1000.size a
  hwx0_0 : ∀ i : grid0.Coords, EltTy.bits .f32 = 32 ∨ (Rect.block (s := S4096x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S4096x1000.size a
  hwx0_1 : ∀ i : grid0.Coords, EltTy.bits .bf16 = 32 ∨ (Rect.block (s := S4096x1000) S1024x1000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1000.size a ≤ S8192x1000.size a
  hwx1_0 : ∀ i : grid1.Coords, EltTy.bits .f32 = 32 ∨ (Rect.block (s := S8192x1000) S512x1000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1000.size a ≤ S4096x1000.size a
  hwx1_1 : ∀ i : grid1.Coords, EltTy.bits .bf16 = 32 ∨ (Rect.block (s := S4096x1000) S4096x1000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S8192x4096.size a
  hwx1_3 : ∀ i : grid1.Coords, EltTy.bits .f32 = 32 ∨ (Rect.block (s := S8192x4096) S512x4096.size (cc1_transform_3 i) (hinb1_3 i)).WholeWords (EltTy.packing .f32)

variable [Facts₀]

def dot_S512x1000_S4096x1000_S512x4096_1_1_0_0_n_n : DotDims S512x1000 S4096x1000 S512x4096 where
  lhsContracting := [1]
  rhsContracting := [1]
  lhsNonContracting := [0]
  rhsNonContracting := [0]
  lhsBatch := []
  rhsBatch := []
  wf := dot_S512x1000_S4096x1000_S512x4096_1_1_0_0_n_n_wf

abbrev win0_0 : Pipeline.Window sig grid0 :=
  Pipeline.Window.ofSpec (Memref.whole main_arg1) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x1000.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x1000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S4096x1000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x1000 : Shape := ⟨2, ![8192, 1000]⟩
abbrev S4096x1000 : Shape := ⟨2, ![4096, 1000]⟩
abbrev S_ : Shape := ⟨0, ![]⟩
abbrev S8192 : Shape := ⟨1, ![8192]⟩
abbrev S8192x1 : Shape := ⟨2, ![8192, 1]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x1000, .f32⟩
  | .hbm, ⟨1, _⟩ => ⟨S4096x1000, .f32⟩
  | .hbm, ⟨2, _⟩ => ⟨S8192x1000, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S4096x1000, .f32⟩
  | .hbm, ⟨7, _⟩ => ⟨S_, .f32⟩
  | .hbm, ⟨8, _⟩ => ⟨S4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x1000_S8192_d1 : S8192x1000.ReducesTo [1] S8192
  h_S_ : 0 < S_.numel
  bcast_S8192_S8192x1_0 : S8192.BroadcastsInDim S8192x1 (![0] : Fin 1 → Fin S8192x1.rank)
  reducesTo_S4096x1000_S4096_d1 : S4096x1000.ReducesTo [1] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x1000_S4096x1000_S8192x4096_1_1_0_0_n_n_wf : DotDims.WF S8192x1000 S4096x1000 S8192x4096 [1] [1] [0] [0] [] []

variable [Facts₀]

def dot_S8192x1000_S4096x1000_S8192x4096_1_1_0_0_n_n : DotDims S8192x1000 S4096x1000 S8192x4096 where
  lhsContracting := [1]
  rhsContracting := [1]
  lhsNonContracting := [0]
  rhsNonContracting := [0]
  lhsBatch := []
  rhsBatch := []
  wf := dot_S8192x1000_S4096x1000_S8192x4096_1_1_0_0_n_n_wf

class Facts : Prop extends Facts₀ where

variable [Facts]
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.PrepBody.lean ====
/-
  The preparation kernel's two stored values, read at an index of a 1024-row block of p.

  The first is the block itself in the narrower float format: on the extended reals a change of format is the
  identity, so every entry is the loaded entry. The second is the row of squared norms: entry (0, r) is
  Σ_d p(r,d)², the lane sum of the squares of row r, laid out as a [1, 1024] row.
-/
import proofs.«155411_j64458869178544_2_alg».proof.Proof.Gen.KernelIdeal.Skeleton
import proofs.«155411_j64458869178544_2_alg».proof.Proof.LibRowSum
import Idealize.ShloMosaic.Lib.ValueLayout

noncomputable section

namespace Cert.KernelIdeal.PrepBody

open Cert.KernelIdeal Cert.KernelIdeal.Gen Idealize.ShloMosaic Idealize.ShloMosaic.ValueIdx

/-- The block in the narrower format holds the loaded entries. -/
theorem narrow_apply (v0 : Vec Ideal S1024x1000 .f32) (y : S1024x1000.Idx) : k0_pay1 v0 y = v0 y := rfl

/-- The row of squared norms at `(0, r)` is the sum over the 1000 columns of the squares of row `r`. -/
theorem sqnorm_apply (v0 : Vec Ideal S1024x1000 .f32) (u : Fin 1) (r : Fin 1024) :
    k0_pay2 v0 (ix2 u r) = ∑ d : Fin 1000, v0 (ix2 r d) * v0 (ix2 r d) := by
  unfold k0_pay2
  refine (shapeCast_a_1a_apply _ _ u r).trans ?_
  exact multiReduction_add_rows_apply (mulf v0 v0) _ _ _ r

end Cert.KernelIdeal.PrepBody

end
-- ==== Proof.Dist.lean ====
/-
  The pairwise distance between the rows of two matrices, as one function of the two matrices on the extended reals.

  For x of shape [B, D] and p of shape [C, D] (here B = 8192, C = 4096, D = 1000) the entry (i, j) is

      sqrt (max ((|x_i|² + |p_j|²) − 2 · ⟨x_i, p_j⟩) 0),

  with |x_i|² = Σ_d x(i,d)², |p_j|² = Σ_d p(j,d)² and ⟨x_i, p_j⟩ = Σ_d x(i,d)·p(j,d). Both programs compute exactly this
  term, with the same grouping (the two squared norms are added first, the doubled inner product subtracted from the
  sum), so no law of arithmetic beyond `0 + s = s` is needed to join them, and nothing is asked of the inputs.
-/
import Idealize.ShloMosaic.PureOps.Ideal
import Idealize.ShloMosaic.PureOps.Ideal.Laws
import Idealize.ShloMosaic.Lib.ValueIdx

noncomputable section

namespace Cert.L2

open Idealize.ShloMosaic Idealize.ShloMosaic.ValueIdx

/-- The squared norm of row `r` of a matrix with `k` columns. -/
def rowSq {n k : ℕ} (a : (⟨2, ![n, k]⟩ : Shape).Idx → EReal) (r : Fin n) : EReal :=
  ∑ d : Fin k, a (ix2 r d) * a (ix2 r d)

/-- The inner product of row `i` of `x` with row `j` of `p`. -/
def rowDot {m n k : ℕ} (x : (⟨2, ![m, k]⟩ : Shape).Idx → EReal) (p : (⟨2, ![n, k]⟩ : Shape).Idx → EReal)
    (i : Fin m) (j : Fin n) : EReal :=
  ∑ d : Fin k, x (ix2 i d) * p (ix2 j d)

/-- The distance entry from the three numbers it is made of: the two squared norms and the inner product. The
    literals are the programs' own words for 2 and 0. -/
def distOf (x2 p2 xp : EReal) : EReal :=
  Ideal.sqrt (max ((x2 + p2) - Ideal.ofBits .f32 0x40000000#32 * xp) (Ideal.ofBits .f32 0x00000000#32))

/-- The distance matrix at `(i, j)`. -/
def distAt (x : (⟨2, ![8192, 1000]⟩ : Shape).Idx → EReal) (p : (⟨2, ![4096, 1000]⟩ : Shape).Idx → EReal)
    (i : Fin 8192) (j : Fin 4096) : EReal :=
  distOf (rowSq x i) (rowSq p j) (rowDot x p i j)

/-- The distance matrix. -/
def dist (x : (⟨2, ![8192, 1000]⟩ : Shape).Idx → EReal) (p : (⟨2, ![4096, 1000]⟩ : Shape).Idx → EReal) :
    (⟨2, ![8192, 4096]⟩ : Shape).Idx → EReal :=
  fun y => distAt x p ⟨(y 0).val, (y 0).isLt⟩ ⟨(y 1).val, (y 1).isLt⟩

theorem dist_apply (x : (⟨2, ![8192, 1000]⟩ : Shape).Idx → EReal) (p : (⟨2, ![4096, 1000]⟩ : Shape).Idx → EReal)
    (i : Fin 8192) (j : Fin 4096) : dist x p (ix2 i j) = distAt x p i j := rfl

end Cert.L2

end
-- ==== Proof.PrepArrays.lean ====
/-
  The two arrays the preparation call leaves, each as one function of p as the call finds it.

  The call walks the 4096 rows of p in four blocks of 1024 rows. At block t it writes rows 1024·t … 1024·t + 1023 of
  the narrowed copy of p (entry for entry the same extended real) and entries 1024·t … 1024·t + 1023 of the row of
  squared norms. Each of the two output arrays is tiled by its four blocks, so after the call the first holds p and
  the second holds, at (0, r), the squared norm Σ_d p(r,d)² of row r.
-/
import proofs.«155411_j64458869178544_2_alg».proof.Proof.Gen.KernelIdeal.Frame
import proofs.«155411_j64458869178544_2_alg».proof.Proof.PrepBody
import proofs.«155411_j64458869178544_2_alg».proof.Proof.Dist
import Idealize.ShloMosaic.Lib.Pipeline.Value

noncomputable section

namespace Cert.KernelIdeal.PrepValue

open Cert.KernelIdeal Cert.KernelIdeal.Gen Idealize.ShloMosaic Idealize.ShloMosaic.TcCoe Idealize.SL.Sem
open Idealize.ShloMosaic.ValueIdx Cert.L2
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where the three windows' blocks sit at point `t`: the input and the narrowed copy at row block `t`, the row of
    norms at column block `t`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The narrowed copy of p: entry for entry p itself. -/
def narrowed (c : Dev nD) : Buf (Elt Ideal) ((c : Thread nD τ).loc main_v0_0) := fun y => V c main_arg1 y

/-- The row of squared norms of p's rows. -/
def sqnorms (c : Dev nD) : Buf (Elt Ideal) ((c : Thread nD τ).loc main_v0_1) :=
  fun y => rowSq (V c main_arg1) ⟨(y 1).val, (y 1).isLt⟩

/-- Row `r` of the input block at point `t` is row `1024·t + r` of p. -/
theorem read_p (c : Dev nD) (t : Fin cfg0.N) (r : Fin 1024) (d : Fin 1000) (R : Fin 4096) (hR : R.val = t.val * 1024 + r.val) :
    iblk0 V c 0 t (ix2 r d) = V c main_arg1 (ix2 R d) := by
  show V c main_arg1 (((cfg0.win 0).blk t).view.emb (ix2 r d)) = V c main_arg1 (ix2 R d)
  refine congrArg _ (funext fun a => Fin.ext ?_)
  obtain ⟨e0, e1, -⟩ := idx_facts t
  match a with
  | ⟨0, _⟩ => show win0_0.index t (0 : Fin 2) * 1024 + 1 * r.val = R.val; omega
  | ⟨1, _⟩ => show win0_0.index t (1 : Fin 2) * 1000 + 1 * d.val = d.val; omega

/-! ## The narrowed copy -/

/-- What point `t` writes back to the narrowed copy is its block of p. -/
theorem flushed1_eq (c : Dev nD) (t : Fin cfg0.N) :
    (dat0 V c).flushed 1 t = ((cfg0.win 1).blk t).view.read (Elt Ideal) (narrowed V c) := by
  show (cfg0.win 1).cut (grid0.coords t) ((dat0 V c).after 1 t) = _
  rw [after0_1]
  unfold out0_1
  rw [View.canon_unit_zero hz]
  simp only [View.ld_unit_zero (S := S1024x1000) hz]
  obtain ⟨e0, e1, e2, e3, -⟩ := idx_facts t
  funext y
  show V c main_arg1 (((cfg0.win 0).blk t).view.emb y) = V c main_arg1 (((cfg0.win 1).blk t).view.emb y)
  refine congrArg _ (funext fun a => Fin.ext ?_)
  match a with
  | ⟨0, _⟩ => show win0_0.index t (0 : Fin 2) * 1024 + 1 * (y 0).val = win0_1.index t (0 : Fin 2) * 1024 + 1 * (y 0).val; omega
  | ⟨1, _⟩ => show win0_0.index t (1 : Fin 2) * 1000 + 1 * (y 1).val = win0_1.index t (1 : Fin 2) * 1000 + 1 * (y 1).val; omega

theorem mem_blk1 (t : Fin cfg0.N) (i : S4096x1000.Idx) :
    i ∈ ((cfg0.win 1).blk t).view.set ↔ ∀ a : Fin 2, win0_1.index t a * S1024x1000.size a ≤ (i a).val ∧ (i a).val < win0_1.index t a * S1024x1000.size a + S1024x1000.size a := by
  show i ∈ ((View.whole main_v0_0).slice (win0_1.rect t)).set ↔ _
  rw [View.set_slice_whole, Rect.mem_set_unit]
  exact Iff.rfl

/-- Row `i` of the narrowed copy lies in the block of point `i / 1024`. -/
theorem cover1 (i : S4096x1000.Idx) : ∃ t : Fin cfg0.N, (cfg0.win 1).flush t = true ∧ i ∈ ((cfg0.win 1).blk t).view.set := by
  have hi0 : (i 0).val < 4096 := (i 0).isLt
  have hi1 : (i 1).val < 1000 := (i 1).isLt
  have ht : (i 0).val / 1024 < cfg0.N := by show _ < grid0.N; rw [N_0]; omega
  obtain ⟨-, -, e0, e1, -⟩ := idx_facts ⟨(i 0).val / 1024, ht⟩
  refine ⟨⟨(i 0).val / 1024, ht⟩, flush0_1 _, ?_⟩
  rw [mem_blk1]
  intro a
  match a with
  | ⟨0, _⟩ =>
    show win0_1.index ⟨(i 0).val / 1024, ht⟩ (0 : Fin 2) * 1024 ≤ (i 0).val ∧ (i 0).val < win0_1.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_1.index ⟨(i 0).val / 1024, ht⟩ (1 : Fin 2) * 1000 ≤ (i 1).val ∧ (i 1).val < win0_1.index ⟨(i 0).val / 1024, ht⟩ (1 : Fin 2) * 1000 + 1000
    rw [e1]; omega

/-- After the call the narrowed copy holds p. -/
theorem narrowed_final (c : Dev nD) : (dat0 V c).arrAt 1 cfg0.N = narrowed V c :=
  (dat0 V c).arrAt_eq_of_cover 1 (narrowed V c) (fun t _ => flushed1_eq V c t) cover1

/-! ## The row of squared norms -/

/-- The buffer the body leaves for the row of norms, at `(0, r)`: the squared norm of row `r` of the input block. -/
theorem out_norms_apply (x0 : Vec Ideal S1024x1000 .f32) (u : Fin 1) (r : Fin 1024) :
    out0_2 x0 (ix2 u r) = ∑ d : Fin 1000, x0 (ix2 r d) * x0 (ix2 r d) := by
  unfold out0_2
  rw [View.canon_unit_zero hz]
  simp only [View.ld_unit_zero (S := S1024x1000) hz]
  exact PrepBody.sqnorm_apply x0 u r

/-- What point `t` writes back to the row of norms is its block of the squared norms of p's rows. -/
theorem flushed2_eq (c : Dev nD) (t : Fin cfg0.N) :
    (dat0 V c).flushed 2 t = ((cfg0.win 2).blk t).view.read (Elt Ideal) (sqnorms V c) := by
  show (cfg0.win 2).cut (grid0.coords t) ((dat0 V c).after 2 t) = _
  rw [after0_2]
  obtain ⟨-, -, -, -, e4, e5⟩ := idx_facts t
  funext y
  obtain ⟨u, r, rfl⟩ : ∃ (u : Fin 1) (r : Fin 1024), y = ix2 u r :=
    ⟨⟨(y 0).val, (y 0).isLt⟩, ⟨(y 1).val, (y 1).isLt⟩, funext fun a => by match a with | ⟨0, _⟩ => rfl | ⟨1, _⟩ => rfl⟩
  have ht : t.val < 4 := lt_of_lt_of_eq t.isLt (show cfg0.N = 4 from N_0)
  have hR : t.val * 1024 + r.val < 4096 := by have := r.isLt; omega
  show out0_2 (iblk0 V c 0 t) (ix2 u r) = sqnorms V c (((cfg0.win 2).blk t).view.emb (ix2 u r))
  refine (out_norms_apply (iblk0 V c 0 t) u r).trans ?_
  have hs : sqnorms V c (((cfg0.win 2).blk t).view.emb (ix2 u r)) = rowSq (V c main_arg1) ⟨t.val * 1024 + r.val, hR⟩ := by
    unfold sqnorms
    refine congrArg _ (Fin.ext ?_)
    show win0_2.index t (1 : Fin 2) * 1024 + 1 * r.val = t.val * 1024 + r.val
    omega
  rw [hs]
  unfold rowSq
  exact Finset.sum_congr rfl fun d _ => by rw [read_p V c t r d ⟨t.val * 1024 + r.val, hR⟩ rfl]

theorem mem_blk2 (t : Fin cfg0.N) (i : S1x4096.Idx) :
    i ∈ ((cfg0.win 2).blk t).view.set ↔ ∀ a : Fin 2, win0_2.index t a * S1x1024.size a ≤ (i a).val ∧ (i a).val < win0_2.index t a * S1x1024.size a + S1x1024.size a := by
  show i ∈ ((View.whole main_v0_1).slice (win0_2.rect t)).set ↔ _
  rw [View.set_slice_whole, Rect.mem_set_unit]
  exact Iff.rfl

/-- Entry `(0, j)` of the row of norms lies in the block of point `j / 1024`. -/
theorem cover2 (i : S1x4096.Idx) : ∃ t : Fin cfg0.N, (cfg0.win 2).flush t = true ∧ i ∈ ((cfg0.win 2).blk t).view.set := by
  have hi0 : (i 0).val < 1 := (i 0).isLt
  have hi1 : (i 1).val < 4096 := (i 1).isLt
  have ht : (i 1).val / 1024 < cfg0.N := by show _ < grid0.N; rw [N_0]; omega
  obtain ⟨-, -, -, -, e0, e1⟩ := idx_facts ⟨(i 1).val / 1024, ht⟩
  refine ⟨⟨(i 1).val / 1024, ht⟩, flush0_2 _, ?_⟩
  rw [mem_blk2]
  intro a
  match a with
  | ⟨0, _⟩ =>
    show win0_2.index ⟨(i 1).val / 1024, ht⟩ (0 : Fin 2) * 1 ≤ (i 0).val ∧ (i 0).val < win0_2.index ⟨(i 1).val / 1024, ht⟩ (0 : Fin 2) * 1 + 1
    rw [e0]; omega
  | ⟨1, _⟩ =>
    show win0_2.index ⟨(i 1).val / 1024, ht⟩ (1 : Fin 2) * 1024 ≤ (i 1).val ∧ (i 1).val < win0_2.index ⟨(i 1).val / 1024, ht⟩ (1 : Fin 2) * 1024 + 1024
    rw [e1]; show (i 1).val / 1024 * 1024 ≤ (i 1).val ∧ (i 1).val < (i 1).val / 1024 * 1024 + 1024; omega

/-- After the call the row of norms holds the squared norms of p's rows. -/
theorem sqnorms_final (c : Dev nD) : (dat0 V c).arrAt 2 cfg0.N = sqnorms V c :=
  (dat0 V c).arrAt_eq_of_cover 2 (sqnorms V c) (fun t _ => flushed2_eq V c t) cover2

end Cert.KernelIdeal.PrepValue

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.DistBody.lean ====
/-
  The distance kernel's stored value, read at an index (i, j) of a 512-row block.

  From the block x0 of 512 rows of x, the whole narrowed matrix pb and the row n of squared norms, entry (i, j) is
  sqrt (max ((Σ_d x0(i,d)² + n(0,j)) − 2 · Σ_d x0(i,d)·pb(j,d)) 0): the lane sum of the squares kept as a column
  and spread along the row, the row of norms spread down the column, and the matrix product x0·pbᵀ into the zero
  accumulator as a plain sum over the contracted axis. The narrowing of x0 before the product is the identity on
  the extended reals.
-/
import proofs.«155411_j64458869178544_2_alg».proof.Proof.Gen.KernelIdeal.Skeleton
import proofs.«155411_j64458869178544_2_alg».proof.Proof.LibRowSum
import proofs.«155411_j64458869178544_2_alg».proof.Proof.LibColumn
import proofs.«155411_j64458869178544_2_alg».proof.Proof.Dist
import Idealize.ShloMosaic.Lib.ValueLayout

noncomputable section

namespace Cert.KernelIdeal.DistBody

open Cert.KernelIdeal Cert.KernelIdeal.Gen Idealize.ShloMosaic Idealize.ShloMosaic.ValueIdx Cert.L2

abbrev dotD := dot_S512x1000_S4096x1000_S512x4096_1_1_0_0_n_n

theorem lhs_0 (y : S512x4096.Idx) (q : dotD.contr.Idx) : (dotD.lhsIdx y q 0).val = (y 0).val := by
  unfold DotDims.lhsIdx
  rw [dif_neg (show ¬(0 : Fin S512x1000.rank) ∈ dotD.lhsBatch by decide), dif_pos (show (0 : Fin S512x1000.rank) ∈ dotD.lhsNonContracting by decide)]
  rfl
theorem lhs_1 (y : S512x4096.Idx) (q : dotD.contr.Idx) : (dotD.lhsIdx y q 1).val = (q ⟨0, by decide⟩).val :=
  dotD.lhsIdx_val_of_single rfl y q
theorem rhs_0 (y : S512x4096.Idx) (q : dotD.contr.Idx) : (dotD.rhsIdx y q 0).val = (y 1).val := by
  unfold DotDims.rhsIdx
  rw [dif_neg (show ¬(0 : Fin S4096x1000.rank) ∈ dotD.rhsBatch by decide), dif_pos (show (0 : Fin S4096x1000.rank) ∈ dotD.rhsNonContracting by decide)]
  rfl
theorem rhs_1 (y : S512x4096.Idx) (q : dotD.contr.Idx) : (dotD.rhsIdx y q 1).val = (q ⟨0, by decide⟩).val :=
  dotD.rhsIdx_val_of_single rfl y q

/-- The product a·bᵀ into the zero accumulator, at (i, j): the sum over the 1000 columns of a(i,d)·b(j,d). -/
theorem product_apply (a : FVec Ideal S512x1000 .bf16) (b : FVec Ideal S4096x1000 .bf16) (i : Fin 512) (j : Fin 4096) :
    matmul dotD none a b (constant S512x4096 .f32 0x00000000#32) (ix2 i j) = ∑ d : Fin 1000, a (ix2 i d) * b (ix2 j d) := by
  simp only [matmul]
  rw [Ideal.matmul_constant_zero_apply, ← Equiv.sum_comp (ValueIdx.contrEquiv1 dotD 1000 rfl rfl).symm]
  refine Finset.sum_congr rfl fun k _ => ?_
  have hk := ValueIdx.contrEquiv1_symm_val dotD 1000 rfl rfl k
  have el : dotD.lhsIdx (ix2 i j) ((ValueIdx.contrEquiv1 dotD 1000 rfl rfl).symm k) = ix2 i k := funext fun a => Fin.ext (by
    match a with
    | ⟨0, _⟩ => exact lhs_0 _ _
    | ⟨1, _⟩ => exact (lhs_1 _ _).trans hk)
  have er : dotD.rhsIdx (ix2 i j) ((ValueIdx.contrEquiv1 dotD 1000 rfl rfl).symm k) = ix2 j k := funext fun a => Fin.ext (by
    match a with
    | ⟨0, _⟩ => exact rhs_0 _ _
    | ⟨1, _⟩ => exact (rhs_1 _ _).trans hk)
  rw [el, er]

/-- The column of squared norms of the block's rows, spread along the row: at (i, j) it is Σ_d x0(i,d)². -/
theorem sqcol_apply (v0 : Vec Ideal S512x1000 .f32) (h : S512x1000.Reduces [1] S512) (hφ : FKind.Formats .f32)
    (hacc : (0x00000000#32 : BitVec 32) = FKind.add.neutral .f32 hφ) (hc : S512.ShapeCasts S512x1) (hb : S512x1.Broadcasts S512x4096)
    (i : Fin 512) (j : Fin 4096) :
    broadcastTo S512x4096 (shapeCast S512x1 (multiReduction (F := Ideal) .add [1] S512 (mulf v0 v0) 0x00000000#32 h hφ hacc) hc) hb (ix2 i j)
      = ∑ d : Fin 1000, v0 (ix2 i d) * v0 (ix2 i d) :=
  (broadcastTo_a1_ab_apply _ hb i j).trans
    ((shapeCast_a_a1_apply _ hc i 0).trans (multiReduction_add_rows_apply (mulf v0 v0) h hφ hacc i))

/-- The row of norms, spread down the column: at (i, j) it is n(0, j). -/
theorem normrow_apply (v8 : Vec Ideal S1x4096 .f32) (hc : S1x4096.ShapeCasts S1x4096) (hb : S1x4096.Broadcasts S512x4096)
    (i : Fin 512) (j : Fin 4096) :
    broadcastTo S512x4096 (shapeCast S1x4096 v8 hc) hb (ix2 i j) = v8 (ix2 (0 : Fin 1) j) :=
  (broadcastTo_1b_ab_apply _ hb i j).trans (congrFun (shapeCast_self v8 hc) _)

/-- The stored block at (i, j). -/
theorem dist_apply (v0 : Vec Ideal S512x1000 .f32) (v5 : Vec Ideal S4096x1000 .bf16) (v8 : Vec Ideal S1x4096 .f32)
    (i : Fin 512) (j : Fin 4096) :
    k1_pay1 v0 v5 v8 (ix2 i j)
      = distOf (∑ d : Fin 1000, v0 (ix2 i d) * v0 (ix2 i d)) (v8 (ix2 (0 : Fin 1) j)) (∑ d : Fin 1000, v0 (ix2 i d) * v5 (ix2 j d)) := by
  have hA := sqcol_apply v0 reduces_S512x1000_S512 (.inl rfl) rfl shapeCasts_S512_S512x1 broadcasts_S512x1_S512x4096 i j
  have hB := normrow_apply v8 shapeCasts_S1x4096_S1x4096 broadcasts_S1x4096_S512x4096 i j
  have hC : matmul (F := Ideal) dotD none (truncf .bf16 v0 bitsLt_bf16_f32) (shapeCast S4096x1000 v5 shapeCasts_S4096x1000_S4096x1000)
        (constant (F := Ideal) S512x4096 .f32 0x00000000#32) (ix2 i j) = ∑ d : Fin 1000, v0 (ix2 i d) * v5 (ix2 j d) :=
    (product_apply (truncf .bf16 v0 bitsLt_bf16_f32) (shapeCast S4096x1000 v5 shapeCasts_S4096x1000_S4096x1000) i j).trans
      (Finset.sum_congr rfl fun d _ => congrArg (v0 (ix2 i d) * ·) (congrFun (shapeCast_self v5 shapeCasts_S4096x1000_S4096x1000) (ix2 j d)))
  unfold k1_pay1 distOf
  exact congrArg Ideal.sqrt (congrArg₂ max (congrArg₂ (· - ·) (congrArg₂ (· + ·) hA hB)
    (congrArg (Ideal.ofBits .f32 0x40000000#32 * ·) hC)) rfl)

end Cert.KernelIdeal.DistBody

end
-- ==== Proof.DistArrays.lean ====
/-
  The array the distance call leaves, as one function of the three arrays it finds: x, the narrowed copy of p and
  the row of squared norms.

  The call walks the 8192 rows of x in sixteen blocks of 512 rows; the narrowed copy and the row of norms are each
  one whole block, the same at every point. At block t it writes rows 512·t … 512·t + 511 of the result. The
  sixteen blocks tile the result, so after the call entry (i, j) is
  sqrt (max ((Σ_d x(i,d)² + norms(0,j)) − 2 · Σ_d x(i,d)·copy(j,d)) 0).
-/
import proofs.«155411_j64458869178544_2_alg».proof.Proof.Gen.KernelIdeal.Frame
import proofs.«155411_j64458869178544_2_alg».proof.Proof.DistBody
import proofs.«155411_j64458869178544_2_alg».proof.Proof.Dist
import Idealize.ShloMosaic.Lib.Pipeline.Value

noncomputable section

namespace Cert.KernelIdeal.DistValue

open Cert.KernelIdeal Cert.KernelIdeal.Gen Idealize.ShloMosaic Idealize.ShloMosaic.TcCoe Idealize.SL.Sem
open Idealize.ShloMosaic.ValueIdx Cert.L2
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where the four windows' blocks sit at point `t`: x and the result at row block `t`, the two whole-array
    windows at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The result's entry `(i, j)` from the three arrays the call finds. -/
def distsAt (c : Dev nD) (i : Fin 8192) (j : Fin 4096) : EReal :=
  distOf (rowSq (V c main_arg0) i) (V c main_v0_1 (ix2 (0 : Fin 1) j)) (rowDot (V c main_arg0) (V c main_v0_0) i j)

/-- The result array. -/
def dists (c : Dev nD) : Buf (Elt Ideal) ((c : Thread nD τ).loc main_v1) :=
  fun y => distsAt V c ⟨(y 0).val, (y 0).isLt⟩ ⟨(y 1).val, (y 1).isLt⟩

/-- Row `r` of the x block at point `t` is row `512·t + r` of x. -/
theorem read_x (c : Dev nD) (t : Fin cfg1.N) (r : Fin 512) (d : Fin 1000) (R : Fin 8192) (hR : R.val = t.val * 512 + r.val) :
    iblk1 V c 0 t (ix2 r d) = V c main_arg0 (ix2 R d) := by
  show V c main_arg0 (((cfg1.win 0).blk t).view.emb (ix2 r d)) = V c main_arg0 (ix2 R d)
  refine congrArg _ (funext fun a => Fin.ext ?_)
  obtain ⟨e0, e1, -⟩ := idx_facts t
  match a with
  | ⟨0, _⟩ => show win1_0.index t (0 : Fin 2) * 512 + 1 * r.val = R.val; omega
  | ⟨1, _⟩ => show win1_0.index t (1 : Fin 2) * 1000 + 1 * d.val = d.val; omega

/-- The narrowed copy's block is the whole copy at every point. -/
theorem read_copy (c : Dev nD) (t : Fin cfg1.N) (j : Fin 4096) (d : Fin 1000) :
    iblk1 V c 1 t (ix2 j d) = V c main_v0_0 (ix2 j d) := by
  show V c main_v0_0 (((cfg1.win 1).blk t).view.emb (ix2 j d)) = V c main_v0_0 (ix2 j d)
  refine congrArg _ (funext fun a => Fin.ext ?_)
  obtain ⟨-, -, e0, e1, -⟩ := idx_facts t
  match a with
  | ⟨0, _⟩ => show win1_1.index t (0 : Fin 2) * 4096 + 1 * j.val = j.val; omega
  | ⟨1, _⟩ => show win1_1.index t (1 : Fin 2) * 1000 + 1 * d.val = d.val; omega

/-- The row of norms' block is the whole row at every point. -/
theorem read_norms (c : Dev nD) (t : Fin cfg1.N) (u : Fin 1) (j : Fin 4096) :
    iblk1 V c 2 t (ix2 u j) = V c main_v0_1 (ix2 u j) := by
  show V c main_v0_1 (((cfg1.win 2).blk t).view.emb (ix2 u j)) = V c main_v0_1 (ix2 u j)
  refine congrArg _ (funext fun a => Fin.ext ?_)
  obtain ⟨-, -, -, -, e0, e1, -⟩ := idx_facts t
  match a with
  | ⟨0, _⟩ => show win1_2.index t (0 : Fin 2) * 1 + 1 * u.val = u.val; omega
  | ⟨1, _⟩ => show win1_2.index t (1 : Fin 2) * 4096 + 1 * j.val = j.val; omega

/-- The buffer the body leaves for the result, at `(r, j)`, from the three blocks it loads. -/
theorem out_dist_apply (x0 : Vec Ideal S512x1000 .f32) (x1 : Vec Ideal S4096x1000 .bf16) (x2 : Vec Ideal S1x4096 .f32)
    (r : Fin 512) (j : Fin 4096) :
    out1_3 x0 x1 x2 (ix2 r j)
      = distOf (∑ d : Fin 1000, x0 (ix2 r d) * x0 (ix2 r d)) (x2 (ix2 (0 : Fin 1) j)) (∑ d : Fin 1000, x0 (ix2 r d) * x1 (ix2 j d)) := by
  unfold out1_3
  rw [View.canon_unit_zero hz]
  simp only [View.ld_unit_zero (S := S512x1000) hz, View.ld_unit_zero (S := S4096x1000) hz, View.ld_unit_zero (S := S1x4096) hz]
  exact DistBody.dist_apply x0 x1 x2 r j

/-- What point `t` writes back is its block of the result array. -/
theorem flushed3_eq (c : Dev nD) (t : Fin cfg1.N) :
    (dat1 V c).flushed 3 t = ((cfg1.win 3).blk t).view.read (Elt Ideal) (dists V c) := by
  show (cfg1.win 3).cut (grid1.coords t) ((dat1 V c).after 3 t) = _
  rw [after1_3]
  obtain ⟨-, -, -, -, -, -, e6, e7⟩ := idx_facts t
  funext y
  obtain ⟨r, j, rfl⟩ : ∃ (r : Fin 512) (j : Fin 4096), y = ix2 r j :=
    ⟨⟨(y 0).val, (y 0).isLt⟩, ⟨(y 1).val, (y 1).isLt⟩, funext fun a => by match a with | ⟨0, _⟩ => rfl | ⟨1, _⟩ => rfl⟩
  have ht : t.val < 16 := lt_of_lt_of_eq t.isLt (show cfg1.N = 16 from N_1)
  have hR : t.val * 512 + r.val < 8192 := by have := r.isLt; omega
  show out1_3 (iblk1 V c 0 t) (iblk1 V c 1 t) (iblk1 V c 2 t) (ix2 r j) = dists V c (((cfg1.win 3).blk t).view.emb (ix2 r j))
  refine (out_dist_apply (iblk1 V c 0 t) (iblk1 V c 1 t) (iblk1 V c 2 t) r j).trans ?_
  have hs : dists V c (((cfg1.win 3).blk t).view.emb (ix2 r j)) = distsAt V c ⟨t.val * 512 + r.val, hR⟩ j := by
    unfold dists
    refine congrArg₂ (distsAt V c) (Fin.ext ?_) (Fin.ext ?_)
    · show win1_3.index t (0 : Fin 2) * 512 + 1 * r.val = t.val * 512 + r.val; omega
    · show win1_3.index t (1 : Fin 2) * 4096 + 1 * j.val = j.val; omega
  rw [hs]
  unfold distsAt rowSq rowDot
  refine congr (congr (congrArg distOf ?_) ?_) ?_
  · exact Finset.sum_congr rfl fun d _ => by rw [read_x V c t r d ⟨t.val * 512 + r.val, hR⟩ rfl]
  · exact read_norms V c t 0 j
  · exact Finset.sum_congr rfl fun d _ => by rw [read_x V c t r d ⟨t.val * 512 + r.val, hR⟩ rfl, read_copy V c t j d]

theorem mem_blk3 (t : Fin cfg1.N) (i : S8192x4096.Idx) :
    i ∈ ((cfg1.win 3).blk t).view.set ↔ ∀ a : Fin 2, win1_3.index t a * S512x4096.size a ≤ (i a).val ∧ (i a).val < win1_3.index t a * S512x4096.size a + S512x4096.size a := by
  show i ∈ ((View.whole main_v1).slice (win1_3.rect t)).set ↔ _
  rw [View.set_slice_whole, Rect.mem_set_unit]
  exact Iff.rfl

/-- Row `i` of the result lies in the block of point `i / 512`. -/
theorem cover3 (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have ht : (i 0).val / 512 < cfg1.N := by show _ < grid1.N; rw [N_1]; omega
  obtain ⟨-, -, -, -, -, -, e0, e1⟩ := idx_facts ⟨(i 0).val / 512, ht⟩
  refine ⟨⟨(i 0).val / 512, ht⟩, flush1_3 _, ?_⟩
  rw [mem_blk3]
  intro a
  match a with
  | ⟨0, _⟩ =>
    show win1_3.index ⟨(i 0).val / 512, ht⟩ (0 : Fin 2) * 512 ≤ (i 0).val ∧ (i 0).val < win1_3.index ⟨(i 0).val / 512, ht⟩ (0 : Fin 2) * 512 + 512
    rw [e0]; show (i 0).val / 512 * 512 ≤ (i 0).val ∧ (i 0).val < (i 0).val / 512 * 512 + 512; omega
  | ⟨1, _⟩ =>
    show win1_3.index ⟨(i 0).val / 512, ht⟩ (1 : Fin 2) * 4096 ≤ (i 1).val ∧ (i 1).val < win1_3.index ⟨(i 0).val / 512, ht⟩ (1 : Fin 2) * 4096 + 4096
    rw [e1]; omega

/-- After the call the result array holds the distances computed from the three arrays the call found. -/
theorem dists_final (c : Dev nD) : (dat1 V c).arrAt 3 cfg1.N = dists V c :=
  (dat1 V c).arrAt_eq_of_cover 3 (dists V c) (fun t _ => flushed3_eq V c t) cover3

end Cert.KernelIdeal.DistValue

end
-- ==== Proof.KernelRun.lean ====
/-
  The kernel program's run with its result read: the two calls in sequence.

  The program is two calls. The first leaves the narrowed copy of p and the row of squared norms of p's rows; the
  second finds x as launched, and those two arrays as the first call left them, and leaves the distances computed
  from the three. Read through the buffer contents at the two calls' boundaries: every execution ends with the
  result's buffer holding, at (i, j), sqrt (max ((|x_i|² + |p_j|²) − 2·⟨x_i, p_j⟩) 0) of the launch contents of x and
  p, and with x and p unchanged.
-/
import proofs.«155411_j64458869178544_2_alg».proof.Proof.Gen.KernelIdeal.Frame
import proofs.«155411_j64458869178544_2_alg».proof.Proof.PrepArrays
import proofs.«155411_j64458869178544_2_alg».proof.Proof.DistArrays

set_option maxRecDepth 16384

noncomputable section

namespace Cert.KernelIdeal.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.L2

local notation "𝕄" => MT nD τ sig Unit (Elt Ideal) ℕ (UR sig nD τ) ℕ

variable (m : (ℓ : Loc nD τ sig) → Buf (Elt Ideal) ℓ) (ρ : Dev nD → PrngReg)

/-! ## What the second call finds -/

/-- x reaches the second call as launched: the first call does not touch it. -/
theorem x_kept (c : Dev nD) : V1 m ρ c main_arg0 = m ((c : Thread nD τ).loc main_arg0) :=
  (W1_of_ne m ρ c main_arg0 (by decide)).trans rfl

/-- The narrowed copy reaches the second call holding p as launched. -/
theorem copy_eq (c : Dev nD) : V1 m ρ c main_v0_0 = PrepValue.narrowed (V0 m ρ) c :=
  (W1_arr m ρ c 1).trans (PrepValue.narrowed_final (V0 m ρ) c)

/-- The row of norms reaches the second call holding the squared norms of p's rows. -/
theorem norms_eq (c : Dev nD) : V1 m ρ c main_v0_1 = PrepValue.sqnorms (V0 m ρ) c :=
  (W1_arr m ρ c 2).trans (PrepValue.sqnorms_final (V0 m ρ) c)

/-- The result's buffer at the end of the second call is the distance matrix of x and p as launched. -/
theorem result_eq (c : Dev nD) :
    W2 m ρ c (Proc.devRef .tc main_v1) = dist (m ((c : Thread nD τ).loc main_arg0)) (m ((c : Thread nD τ).loc main_arg1)) := by
  refine (W2_arr m ρ c 3).trans ((DistValue.dists_final (V1 m ρ) c).trans ?_)
  funext y
  unfold DistValue.dists DistValue.distsAt
  rw [x_kept m ρ c, copy_eq m ρ c, norms_eq m ρ c]
  rfl

/-! ## The run -/

set_option backward.isDefEq.respectTransparency.types false in
/-- Every weakly fair execution of the program terminates, nothing faulting, with the result's buffer at the
    contents the second call's write-backs leave and the two arguments as launched: the launch over the program's
    two segments, the last thread state read against the final state at the result and at each argument. -/
theorem run_result : θ_run defs (onTc (τ := τ) (main (F := Ideal))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c)⟩)

/-- The run, with the result named as the distance matrix of the launch contents of x and p. -/
theorem run : θ_run defs (onTc (τ := τ) (main (F := Ideal))) ⟨m, fun _ => 0, ρ⟩ (fun r => ∀ c : Dev nD,
      r.2.mem ((c.tc : Thread nD τ).loc main_v1) = dist (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (run_result m ρ)

end Cert.KernelIdeal.KernelValue

end
-- ==== Proof.RefDist.lean ====
/-
  The reference's result is the distance matrix: its operations, read one at a time at an index (i, j), give the
  row sums Σ_d x(i,d)² and Σ_d p(j,d)² (each added to the initial value 0), the inner product Σ_d x(i,d)·p(j,d) of the
  matrix product x·pᵀ, and then sqrt (max ((· + ·) − 2 · ·) 0) of the three.
-/
import proofs.«155411_j64458869178544_2_alg».proof.Proof.Gen.ReferenceIdeal.Read
import proofs.«155411_j64458869178544_2_alg».proof.Proof.Dist

noncomputable section

namespace Cert.ReferenceIdeal.RefValue

open Cert.ReferenceIdeal Cert.ReferenceIdeal.Gen Cert.ReferenceIdeal.Read Idealize.ShloMosaic Idealize.ShloMosaic.ValueIdx Cert.L2

/-- Row `i` of x, column `k`: where the first row sum reads its operand, behind the two broadcasts. -/
theorem idx_x2 (i : Fin 8192) (j : Fin 4096) (k : Fin 1000) :
    idx_main_v1 (idx_main_v2 (idx_main_v7 (ix2 i j))) k = ix2 i k :=
  funext fun a => Fin.ext (by match a with | ⟨0, _⟩ => rfl | ⟨1, _⟩ => rfl)

/-- Row `j` of p, column `k`: where the second row sum reads its operand, behind the two broadcasts. -/
theorem idx_p2 (i : Fin 8192) (j : Fin 4096) (k : Fin 1000) :
    idx_main_v4 (idx_main_v6 (idx_main_v8 (ix2 i j))) k = ix2 j k :=
  funext fun a => Fin.ext (by match a with | ⟨0, _⟩ => rfl | ⟨1, _⟩ => rfl)

/-- The matrix product's left factor at (i, j), term `k`, is x(i, k); -/
theorem idx_l (i : Fin 8192) (j : Fin 4096) (k : Fin 1000) : lidx_main_v5 (ix2 i j) k = ix2 i k :=
  funext fun a => Fin.ext (by match a with | ⟨0, _⟩ => rfl | ⟨1, _⟩ => rfl)

/-- its right factor is p(j, k). -/
theorem idx_r (i : Fin 8192) (j : Fin 4096) (k : Fin 1000) : ridx_main_v5 (ix2 i j) k = ix2 j k :=
  funext fun a => Fin.ext (by match a with | ⟨0, _⟩ => rfl | ⟨1, _⟩ => rfl)

/-- The reference's last stage is the distance matrix of its two arguments. -/
theorem ref_eq (x0 : (⟨S8192x1000, .f32⟩ : BufTy).Contents (Elt Ideal)) (x1 : (⟨S4096x1000, .f32⟩ : BufTy).Contents (Elt Ideal)) :
    val_main_v15 (F := Ideal) x0 x1 = dist x0 x1 := by
  funext y
  obtain ⟨i, j, rfl⟩ : ∃ (i : Fin 8192) (j : Fin 4096), y = ix2 i j := ⟨y 0, y 1, eq_ix2 y⟩
  rw [dist_apply, val_main_v15_apply, val_main_v14_apply, val_main_v13_apply, val_main_cst_2_apply, val_main_v12_apply,
    val_main_v11_apply, val_main_v10_apply, val_main_cst_1_apply, val_main_v5_apply, val_main_v9_apply,
    val_main_v8_apply, val_main_v6_apply, val_main_v4_apply, val_main_cst_0_apply,
    val_main_v7_apply, val_main_v2_apply, val_main_v1_apply, val_main_cst_apply]
  simp only [val_main_v0_apply, val_main_v3_apply, idx_x2, idx_p2, idx_l, idx_r, Ideal.hostUnary_sqrt_def, Ideal.maximumf_def,
    Ideal.subf_def, Ideal.addf_def, Ideal.mulf_def, Ideal.ofBits_def, Ideal.ofBits_zero_f32, zero_add,
    distAt, distOf, rowSq, rowDot]

end Cert.ReferenceIdeal.RefValue

end
-- ==== Proof.lean ====
/-
  The pairwise distances between the rows of x ([8192, 1000]) and the rows of p ([4096, 1000]), computed by two
  kernel calls against the plain reference: entry (i, j) is sqrt (max ((|x_i|² + |p_j|²) − 2·⟨x_i, p_j⟩) 0).

  The kernel program first prepares p in one call — a copy in a narrower float format and the row of squared norms
  Σ_d p(j,d)² — and then, block of 512 rows of x by block, forms the squared norms of x's rows, the product of the
  block with the copy's transpose, and the clamped square root. The reference forms the two row sums, the whole
  product x·pᵀ and the same clamped square root. On the extended reals the change of format is the identity, a lane
  sum and a host sum over one axis are the same finite sum, and both matrix products are the sum over the 1000
  columns of the entries' products; the three numbers are combined with the same grouping on both sides. So the
  two results are one function of x and p, with no condition on the inputs: the precondition is never opened.

  The frames of the two kernel programs are the generated ones; the reference's frame is its generated run with the
  result dropped; the idealization rewrote nothing.
-/
import proofs.«155411_j64458869178544_2_alg».proof.Defs
import proofs.«155411_j64458869178544_2_alg».proof.Proof.Gen.Kernel
import proofs.«155411_j64458869178544_2_alg».proof.Proof.Gen.Kernel.Skeleton
import proofs.«155411_j64458869178544_2_alg».proof.Proof.Gen.Kernel.Launch
import proofs.«155411_j64458869178544_2_alg».proof.Proof.Gen.Kernel.Points
import proofs.«155411_j64458869178544_2_alg».proof.Proof.Gen.Kernel.Frame
import proofs.«155411_j64458869178544_2_alg».proof.Proof.Gen.KernelIdeal
import proofs.«155411_j64458869178544_2_alg».proof.Proof.Gen.KernelIdeal.Skeleton
import proofs.«155411_j64458869178544_2_alg».proof.Proof.Gen.KernelIdeal.Launch
import proofs.«155411_j64458869178544_2_alg».proof.Proof.Gen.KernelIdeal.Points
import proofs.«155411_j64458869178544_2_alg».proof.Proof.Gen.KernelIdeal.Frame
import proofs.«155411_j64458869178544_2_alg».proof.Proof.Gen.ReferenceIdeal
import proofs.«155411_j64458869178544_2_alg».proof.Proof.Gen.Pre_finite_inputs
import proofs.«155411_j64458869178544_2_alg».proof.Proof.Gen.ReferenceIdeal.Run
import proofs.«155411_j64458869178544_2_alg».proof.Proof.Gen.ReferenceIdeal.Read
import proofs.«155411_j64458869178544_2_alg».proof.Proof.KernelRun
import proofs.«155411_j64458869178544_2_alg».proof.Proof.RefDist
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the distance matrix of the arguments they were launched with, and the arguments agree. -/
theorem algebraic : Cert.algebraic_KernelIdeal_ReferenceIdeal := by
  intro m ρ m' ρ' _ hagree
  refine ⟨fun c => Cert.L2.dist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
